-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x2048x64 : Shape := ⟨4, ![1, 16, 2048, 64]⟩
abbrev S_ : Shape := ⟨0, ![]⟩

class Facts : Prop where
  bcast_S_S1x16x2048x64 : S_.BroadcastsInDim S1x16x2048x64 (![] : Fin 0 → Fin S1x16x2048x64.rank)
  reducesTo_S1x16x2048x64_S_d0_1_2_3 : S1x16x2048x64.ReducesTo [0, 1, 2, 3] S_
  h_S_ : 0 < S_.numel

variable [Facts]

def fn {F : FTy → Type} [FloatOps F] (main_arg0 : FVec F S1x16x2048x64 .f32) (main_arg1 : FVec F S1x16x2048x64 .f32) (main_arg2 : FVec F S1x16x2048x64 .f32) : IVec S_ 1 :=
  let main_v0 : FVec F S1x16x2048x64 .f32 := Host.absf main_arg0
  let main_cst : FVec F S_ .f32 := constant S_ .f32 0x7F800000#32
  let main_v1 : FVec F S1x16x2048x64 .f32 := broadcastInDim S1x16x2048x64 ![] bcast_S_S1x16x2048x64 main_cst
  let main_v2 : IVec S1x16x2048x64 1 := cmpf .olt main_v0 main_v1
  let main_c : IVec S_ 1 := constantI S_ 1 1#1
  let main_v3 : IVec S_ 1 := (fun x v => Host.reduce IntOp.andi x v reducesTo_S1x16x2048x64_S_d0_1_2_3 h_S_) main_v2 main_c
  let main_v4 : FVec F S1x16x2048x64 .f32 := Host.absf main_arg1
  let main_cst_0 : FVec F S_ .f32 := constant S_ .f32 0x7F800000#32
  let main_v5 : FVec F S1x16x2048x64 .f32 := broadcastInDim S1x16x2048x64 ![] bcast_S_S1x16x2048x64 main_cst_0
  let main_v6 : IVec S1x16x2048x64 1 := cmpf .olt main_v4 main_v5
  let main_c_1 : IVec S_ 1 := constantI S_ 1 1#1
  let main_v7 : IVec S_ 1 := (fun x v => Host.reduce IntOp.andi x v reducesTo_S1x16x2048x64_S_d0_1_2_3 h_S_) main_v6 main_c_1
  let main_v8 : IVec S_ 1 := andi main_v3 main_v7
  let main_v9 : FVec F S1x16x2048x64 .f32 := Host.absf main_arg2
  let main_cst_2 : FVec F S_ .f32 := constant S_ .f32 0x7F800000#32
  let main_v10 : FVec F S1x16x2048x64 .f32 := broadcastInDim S1x16x2048x64 ![] bcast_S_S1x16x2048x64 main_cst_2
  let main_v11 : IVec S1x16x2048x64 1 := cmpf .olt main_v9 main_v10
  let main_c_3 : IVec S_ 1 := constantI S_ 1 1#1
  let main_v12 : IVec S_ 1 := (fun x v => Host.reduce IntOp.andi x v reducesTo_S1x16x2048x64_S_d0_1_2_3 h_S_) main_v11 main_c_3
  let main_v13 : IVec S_ 1 := andi main_v8 main_v12
  main_v13
-- ==== Kernel.lean ====
abbrev S1x16x2048x64 : Shape := ⟨4, ![1, 16, 2048, 64]⟩
abbrev S16x2048x64 : Shape := ⟨3, ![16, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S1x16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | _, _ => ⟨S1x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1x16x2048x64_S16x2048x64 : S1x16x2048x64.ShapeCasts S16x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  iota_S512x2048_d0_w32 : S512x2048.Iotas .tc 32 [0]
  iota_S512x2048_d1_w32 : S512x2048.Iotas .tc 32 [1]
  reduces_S512x2048_S512 : S512x2048.Reduces [1] S512
  shapeCasts_S512_S512x1 : S512.ShapeCasts S512x1
  broadcasts_S512x1_S512x64 : S512x1.Broadcasts S512x64
  shapeCasts_S512x64_S1x512x64 : S512x64.ShapeCasts S1x512x64
  shapeCasts_S16x2048x64_S1x16x2048x64 : S16x2048x64.ShapeCasts S1x16x2048x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x16x2048x64 : Shape := ⟨4, ![1, 16, 2048, 64]⟩
abbrev S1x16x2048x2048 : Shape := ⟨4, ![1, 16, 2048, 2048]⟩
abbrev S_ : Shape := ⟨0, ![]⟩
abbrev S2048x2048 : Shape := ⟨2, ![2048, 2048]⟩
abbrev S1x16x2048 : Shape := ⟨3, ![1, 16, 2048]⟩
abbrev S1x16x2048x1 : Shape := ⟨4, ![1, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S1x16x2048x64, .f32⟩
  | .hbm, ⟨1, _⟩ => ⟨S1x16x2048x64, .f32⟩
  | .hbm, ⟨2, _⟩ => ⟨S1x16x2048x64, .f32⟩
  | .hbm, ⟨3, _⟩ => ⟨S1x16x2048x2048, .f32⟩
  | .hbm, ⟨4, _⟩ => ⟨S_, .f32⟩
  | .hbm, ⟨5, _⟩ => ⟨S1x16x2048x2048, .f32⟩
  | .hbm, ⟨6, _⟩ => ⟨S1x16x2048x2048, .f32⟩
  | .hbm, ⟨7, _⟩ => ⟨S1x16x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S1x16x2048x2048, .i1⟩
  | .hbm, ⟨21, _⟩ => ⟨S1x16x2048x2048, .f32⟩
  | .hbm, ⟨22, _⟩ => ⟨S1x16x2048x2048, .f32⟩
  | .hbm, ⟨23, _⟩ => ⟨S_, .f32⟩
  | .hbm, ⟨24, _⟩ => ⟨S1x16x2048, .f32⟩
  | .hbm, ⟨25, _⟩ => ⟨S1x16x2048x64, .f32⟩
  | .hbm, ⟨26, _⟩ => ⟨S1x16x2048x1, .f32⟩
  | .hbm, ⟨27, _⟩ => ⟨S_, .f32⟩
  | .hbm, ⟨28, _⟩ => ⟨S1x16x2048x1, .f32⟩
  | .hbm, ⟨29, _⟩ => ⟨S1x16x2048x1, .f32⟩
  | .hbm, ⟨30, _⟩ => ⟨S1x16x2048x64, .f32⟩
  | .hbm, ⟨31, _⟩ => ⟨S1x16x2048x64, .f32⟩
  | _, _ => ⟨S1x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩

abbrev nD : Nat := 1
abbrev τ : Topo := Topo.v7x

variable {F : FTy → Type} [FloatOps F]

class Facts₀ : Prop where
  bcast_S_S1x16x2048x2048 : S_.BroadcastsInDim S1x16x2048x2048 (![] : Fin 0 → Fin S1x16x2048x2048.rank)
  bcast_S_S2048x2048 : S_.BroadcastsInDim S2048x2048 (![] : Fin 0 → Fin S2048x2048.rank)
  bcast_S2048x2048_S1x16x2048x2048_2_3 : S2048x2048.BroadcastsInDim S1x16x2048x2048 (![2, 3] : Fin 2 → Fin S1x16x2048x2048.rank)
  reducesTo_S1x16x2048x2048_S1x16x2048_d3 : S1x16x2048x2048.ReducesTo [3] S1x16x2048
  h_S_ : 0 < S_.numel
  bcast_S1x16x2048_S1x16x2048x1_0_1_2 : S1x16x2048.BroadcastsInDim S1x16x2048x1 (![0, 1, 2] : Fin 3 → Fin S1x16x2048x1.rank)
  bcast_S_S1x16x2048x1 : S_.BroadcastsInDim S1x16x2048x1 (![] : Fin 0 → Fin S1x16x2048x1.rank)
  bcast_S1x16x2048x1_S1x16x2048x64_0_1_2_3 : S1x16x2048x1.BroadcastsInDim S1x16x2048x64 (![0, 1, 2, 3] : Fin 4 → Fin S1x16x2048x64.rank)
  dot_S1x16x2048x64_S1x16x2048x64_S1x16x2048x2048_3_3_2_2_01_01_wf : DotDims.WF S1x16x2048x64 S1x16x2048x64 S1x16x2048x2048 [3] [3] [2] [2] [0, 1] [0, 1]
  dot_S1x16x2048x2048_S1x16x2048x64_S1x16x2048x64_3_2_2_3_01_01_wf : DotDims.WF S1x16x2048x2048 S1x16x2048x64 S1x16x2048x64 [3] [2] [2] [3] [0, 1] [0, 1]

variable [Facts₀]

def dot_S1x16x2048x64_S1x16x2048x64_S1x16x2048x2048_3_3_2_2_01_01 : DotDims S1x16x2048x64 S1x16x2048x64 S1x16x2048x2048 where
  lhsContracting := [3]
  rhsContracting := [3]
  lhsNonContracting := [2]
  rhsNonContracting := [2]
  lhsBatch := [0, 1]
  rhsBatch := [0, 1]
  wf := dot_S1x16x2048x64_S1x16x2048x64_S1x16x2048x2048_3_3_2_2_01_01_wf
def dot_S1x16x2048x2048_S1x16x2048x64_S1x16x2048x64_3_2_2_3_01_01 : DotDims S1x16x2048x2048 S1x16x2048x64 S1x16x2048x64 where
  lhsContracting := [3]
  rhsContracting := [2]
  lhsNonContracting := [2]
  rhsNonContracting := [3]
  lhsBatch := [0, 1]
  rhsBatch := [0, 1]
  wf := dot_S1x16x2048x2048_S1x16x2048x64_S1x16x2048x64_3_2_2_3_01_01_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
# Causal attention with squared scores, normalised by the row sum

For a head `h`, a query row `i` and a feature `d`:

  out h i d = (∑_{j ≤ i} s(i,j)² · V h j d) / ((∑_{j ≤ i} s(i,j)²) + ε),   s(i,j) = (∑_{d'} Q h i d' · K h j d') · c

with `c` the word of `1/8` and `ε` the word of `1e-6`, all over the extended reals. The keys `j > i` enter both sums
with the weight `0`. This module states that function over accessors `Fin 16 → Fin 2048 → Fin 64 → EReal`, proves
that scaling the query row before the contraction gives the same score (multiplication by a non-negative real
distributes over a sum of extended reals), and reads the two causal masks — the tile-relative comparison
`j − r ≤ t·512` and the global `i ≥ j` — on 32-bit words.
-/

noncomputable section

open scoped BigOperators

namespace Cert.CausalAttn

open Idealize.ShloMosaic

/-- An array `[16, 2048, 64]` by coordinates. -/
abbrev Arr := Fin 16 → Fin 2048 → Fin 64 → EReal

/-- The scale: the word of `0.125`. -/
def cScale : EReal := Ideal.ofBits .f32 0x3E000000#32
/-- The regulariser of the denominator: the word of `9.99999997e-7`. -/
def cEps : EReal := Ideal.ofBits .f32 0x358637BD#32

/-- The scale denotes the real `1/8`. -/
theorem cScale_eq : cScale = ((1 / 8 : ℝ) : EReal) := by
  unfold cScale
  simp [Ideal.ofBits, Ideal.ieee, -EReal.coe_mul]; norm_num

theorem cScale_nonneg : 0 ≤ cScale := by
  rw [cScale_eq]; exact EReal.coe_nonneg.mpr (by norm_num)

theorem cScale_ne_top : cScale ≠ ⊤ := by
  rw [cScale_eq]; exact EReal.coe_ne_top _

/-- A non-negative real factor on the right distributes over a finite sum of extended reals. -/
theorem sum_mul_of_nonneg_of_ne_top {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- The scaled score of query row `i` against key row `j`. -/
def score (Q K : Arr) (h : Fin 16) (i j : Fin 2048) : EReal := (∑ d : Fin 64, Q h i d * K h j d) * cScale

/-- Scaling the query row first gives the same score. -/
theorem score_scaled_query (Q K : Arr) (h : Fin 16) (i j : Fin 2048) :
    (∑ d : Fin 64, (Q h i d * cScale) * K h j d) = score Q K h i j := by
  unfold score
  rw [sum_mul_of_nonneg_of_ne_top _ _ cScale_nonneg cScale_ne_top]
  exact Finset.sum_congr rfl fun d _ => by rw [mul_assoc, mul_comm cScale, ← mul_assoc]

/-- The weight of key `j` for query `i`: the squared score on and below the diagonal, `0` above it. -/
def weight (Q K : Arr) (h : Fin 16) (i j : Fin 2048) : EReal :=
  if j.val ≤ i.val then score Q K h i j * score Q K h i j else 0

/-- The normalised output. -/
def attnAt (Q K V : Arr) (h : Fin 16) (i : Fin 2048) (d : Fin 64) : EReal :=
  Ideal.div (∑ j : Fin 2048, weight Q K h i j * V h j d) ((∑ j : Fin 2048, weight Q K h i j) + cEps)

/-- A `[1, 16, 2048, 64]` array by coordinates (the unit batch axis at `0`). -/
def acc4 (x : (⟨4, ![1, 16, 2048, 64]⟩ : Shape).Idx → EReal) : Arr := fun h i d => x (ValueIdx.ix4 (0 : Fin 1) h i d)

/-- A `[16, 2048, 64]` array by coordinates. -/
def acc3 (x : (⟨3, ![16, 2048, 64]⟩ : Shape).Idx → EReal) : Arr := fun h i d => x (ValueIdx.ix3 h i d)

/-- The whole result `[1, 16, 2048, 64]` as a function of the three argument arrays. -/
def attn4 (q k v : (⟨4, ![1, 16, 2048, 64]⟩ : Shape).Idx → EReal) : (⟨4, ![1, 16, 2048, 64]⟩ : Shape).Idx → EReal :=
  fun x => attnAt (acc4 q) (acc4 k) (acc4 v) (x 1) (x 2) (x 3)

theorem attn4_ix4 (q k v : (⟨4, ![1, 16, 2048, 64]⟩ : Shape).Idx → EReal) (u : Fin 1) (h : Fin 16) (i : Fin 2048) (d : Fin 64) :
    attn4 q k v (ValueIdx.ix4 u h i d) = attnAt (acc4 q) (acc4 k) (acc4 v) h i d := rfl

/-- The same over arrays `[16, 2048, 64]`: the batch and head axes merged. -/
def attn3 (q k v : (⟨3, ![16, 2048, 64]⟩ : Shape).Idx → EReal) : (⟨3, ![16, 2048, 64]⟩ : Shape).Idx → EReal :=
  fun x => attnAt (acc3 q) (acc3 k) (acc3 v) (x 0) (x 1) (x 2)

theorem attn3_ix3 (q k v : (⟨3, ![16, 2048, 64]⟩ : Shape).Idx → EReal) (h : Fin 16) (i : Fin 2048) (d : Fin 64) :
    attn3 q k v (ValueIdx.ix3 h i d) = attnAt (acc3 q) (acc3 k) (acc3 v) h i d := rfl

/-! ## The two causal masks on 32-bit words -/

/-- A 32-bit two's-complement word read as an integer is the integer itself inside the signed range. -/
theorem bmod32 {x : Int} (h1 : -2147483648 ≤ x) (h2 : x < 2147483648) : x.bmod (2 ^ 32) = x :=
  Int.bmod_eq_of_le (by omega) (by omega)

/-- The tile-relative mask: for local row `r` of query tile `t` (512 rows a tile) and key `j`, the signed comparison
    `j − r ≤ t·512` holds exactly when `j ≤ t·512 + r`. -/
theorem mask_tile (j r t : Nat) (hj : j < 2048) (hr : r < 512) (ht : t < 4) :
    IntOp.cmpi .sle (IntOp.subi (BitVec.ofNat 32 j) (BitVec.ofNat 32 r)) (Scalar.muli (BitVec.ofNat 32 t) 512#32)
      = if j ≤ t * 512 + r then 1#1 else 0#1 := by
  have h : (BitVec.ofNat 32 j - BitVec.ofNat 32 r).sle (BitVec.ofNat 32 t * 512#32) = decide (j ≤ t * 512 + r) := by
    rw [BitVec.sle_eq_decide]
    congr 1
    apply propext
    rw [BitVec.toInt_sub, BitVec.toInt_mul, BitVec.toInt_ofNat', BitVec.toInt_ofNat', BitVec.toInt_ofNat']
    have e : (512#32 : BitVec 32).toInt = 512 := by decide
    rw [e, bmod32 (x := (j : Int)) (by omega) (by omega), bmod32 (x := (r : Int)) (by omega) (by omega),
      bmod32 (x := (t : Int)) (by omega) (by omega), bmod32 (x := (j : Int) - r) (by omega) (by omega),
      bmod32 (x := (t : Int) * 512) (by omega) (by omega)]
    omega
  show BitVec.ofBool ((BitVec.ofNat 32 j - BitVec.ofNat 32 r).sle (BitVec.ofNat 32 t * 512#32)) = _
  rw [h]
  by_cases hp : j ≤ t * 512 + r
  · rw [if_pos hp, decide_eq_true hp]; rfl
  · rw [if_neg hp, decide_eq_false hp]; rfl

/-- The global mask: for query row `i` and key `j`, the signed comparison `i + 0 ≥ j` holds exactly when `j ≤ i`. -/
theorem mask_global (i j : Nat) (hi : i < 2048) (hj : j < 2048) :
    IntOp.cmpi .sge (IntOp.addi (BitVec.ofNat 32 i) 0#32) (BitVec.ofNat 32 j) = if j ≤ i then 1#1 else 0#1 := by
  have h : (BitVec.ofNat 32 j).sle (BitVec.ofNat 32 i + 0#32) = decide (j ≤ i) := by
    rw [BitVec.sle_eq_decide, BitVec.add_zero]
    congr 1
    apply propext
    rw [BitVec.toInt_ofNat', BitVec.toInt_ofNat', bmod32 (x := (j : Int)) (by omega) (by omega),
      bmod32 (x := (i : Int)) (by omega) (by omega)]
    omega
  show BitVec.ofBool ((BitVec.ofNat 32 j).sle (BitVec.ofNat 32 i + 0#32)) = _
  rw [h]
  by_cases hp : j ≤ i
  · rw [if_pos hp, decide_eq_true hp]; rfl
  · rw [if_neg hp, decide_eq_false hp]; rfl

end Cert.CausalAttn

end
-- ==== Proof.LibPlainMatmul.lean ====
import Idealize.ShloMosaic.Lib.ValueIdx
import Idealize.ShloMosaic.PureOps.Ideal.Laws

/-!
# A plain matrix product read at an index

The product of a left operand `[M, K]` and a right operand `[K, N]` into a zero accumulator `[M, N]` — contracting the
left operand's axis 1 with the right operand's axis 0, no batch axis — has, over the extended reals, at `(p, q)` the
element `∑ k, l[p, k] · r[k, q]`: the contraction index is its one coordinate, the left operand's index at `(p, q)`
and `k` is `(p, k)`, the right operand's `(k, q)`.

The statement comes twice: for the record of dimension numbers written out with its well-formedness proof as an
argument (`…_lit`), and for an arbitrary record whose fields are fixed by equations (each `rfl` for a literal record).
-/

noncomputable section

open scoped BigOperators

namespace Idealize.ShloMosaic.PlainMatmul

open Idealize.ShloMosaic Idealize.ShloMosaic.ValueIdx

/-- The dimension numbers of a plain product: `[M, K] · [K, N] → [M, N]`. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- The plain product into the zero accumulator, at `(p, q)`, is `∑ k, l[p, k] · r[k, q]`. -/
theorem matmul_plain_lit {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply, ← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ =>
        show ((plainDims M K N wf).lhsIdx (ix2 p q) _ 0).val = p.val
        unfold DotDims.lhsIdx
        rw [dif_neg (show ¬ (0 : Fin 2) ∈ (plainDims M K N wf).lhsBatch from List.not_mem_nil),
          dif_pos (show (0 : Fin 2) ∈ (plainDims M K N wf).lhsNonContracting from List.mem_singleton.mpr rfl)]
        rfl
      | ⟨1, _⟩ => exact ((plainDims M K N wf).lhsIdx_val_of_single rfl _ _).trans hk)
  have er : (plainDims M K N wf).rhsIdx (ix2 p q) ((contrEquiv1 (plainDims M K N wf) K rfl rfl).symm k) = ix2 k q :=
    funext fun a => Fin.ext (by
      match a with
      | ⟨0, _⟩ => exact ((plainDims M K N wf).rhsIdx_val_of_single rfl _ _).trans hk
      | ⟨1, _⟩ =>
        show ((plainDims M K N wf).rhsIdx (ix2 p q) _ 1).val = q.val
        unfold DotDims.rhsIdx
        rw [dif_neg (show ¬ (1 : Fin 2) ∈ (plainDims M K N wf).rhsBatch from List.not_mem_nil),
          dif_pos (show (1 : Fin 2) ∈ (plainDims M K N wf).rhsNonContracting from List.mem_singleton.mpr rfl)]
        rfl)
  rw [el, er]

/-- The same for ANY record of dimension numbers of these shapes whose fields are those of a plain product. -/
theorem matmul_plain_apply {M K N : Nat} {φ₁ φ₂ : FTy}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (q : Fin N) :
    FloatOps.matmul d prec l r (constant ⟨2, ![M, N]⟩ .f32 0x00000000#32) (ix2 p q)
      = ∑ k : Fin K, l (ix2 p k) * r (ix2 k q) := by
  obtain ⟨lc, rc, ln, rn, lb, rb, wf⟩ := d
  simp only at hlc hrc hln hrn hlb hrb
  subst hlc hrc hln hrn hlb hrb
  exact matmul_plain_lit wf prec l r p q

end Idealize.ShloMosaic.PlainMatmul

end
-- ==== Proof.LibColumnForms.lean ====
import Idealize.ShloMosaic.Lib.ValueLayout

/-!
# Column forms read at an index

A vector kept as a one-column matrix (a sum with `keepdims`): the cast of a vector `[a]` to a column `[a, 1]`, and a
column `[a, 1]` repeated across the columns of `[a, b]`, each read at an index given by coordinates.
-/

namespace Idealize.ShloMosaic.ColumnForms

open Idealize.ShloMosaic Idealize.ShloMosaic.ValueIdx

variable {α : Type}

/-- A vector `[a]` cast to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated across the columns of `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnForms
-- ==== Proof.KernelTile.lean ====
import proofs.«166495_j29240137351227_2_alg».proof.Proof.Gen.KernelIdeal.Skeleton
import proofs.«166495_j29240137351227_2_alg».proof.Proof.Spec
import proofs.«166495_j29240137351227_2_alg».proof.Proof.LibPlainMatmul
import proofs.«166495_j29240137351227_2_alg».proof.Proof.LibColumnForms
import Idealize.ShloMosaic.Lib.ValueLayout
import Idealize.ShloMosaic.Lib.Pipeline.Value

/-!
# One query tile of the kernel, read at an index

At grid point `(bh, t)` the body holds a query block `x0 : [1, 512, 64]` (rows `t·512 … t·512 + 511` of head `bh`) and
the whole key and value blocks `x1, x2 : [1, 2048, 64]` of that head. What it stores at `(0, r, d)` is

  (∑_j w(r,j) · x2[j, d]) / ((∑_j w(r,j)) + ε),   w(r,j) = s(r,j)² if j ≤ t·512 + r else 0,
  s(r,j) = ∑_{d'} (x0[r, d'] · c) · x1[j, d']

— the scale folded into the query row, the mask the tile-relative comparison `j − r ≤ t·512`.
-/

noncomputable section

open scoped BigOperators

namespace Cert.KernelIdeal.Tile

open Cert.KernelIdeal Cert.KernelIdeal.Gen Cert.CausalAttn Idealize.ShloMosaic Idealize.ShloMosaic.ValueIdx

/-- The score of local query row `r` against key row `j`, the scale folded into the query. -/
def tileScore (x0 : Vec Ideal S1x512x64 .f32) (x1 : Vec Ideal S1x2048x64 .f32) (r : Fin 512) (j : Fin 2048) : EReal :=
  ∑ d' : Fin 64, (x0 (ix3 (0 : Fin 1) r d') * cScale) * x1 (ix3 (0 : Fin 1) j d')

/-- The weight of key `j` for local row `r` of query tile `t`. -/
def tileWeight (t : Nat) (x0 : Vec Ideal S1x512x64 .f32) (x1 : Vec Ideal S1x2048x64 .f32) (r : Fin 512) (j : Fin 2048) : EReal :=
  if j.val ≤ t * 512 + r.val then tileScore x0 x1 r j * tileScore x0 x1 r j else 0

/-- The first product: the scaled query block against the transposed key block, at `(r, j)`. -/
theorem score_apply (D : DotDims S512x64 S64x2048 S512x2048)
    (hlc : D.lhsContracting = [1]) (hrc : D.rhsContracting = [0]) (hln : D.lhsNonContracting = [0])
    (hrn : D.rhsNonContracting = [1]) (hlb : D.lhsBatch = []) (hrb : D.rhsBatch = [])
    (x0 : Vec Ideal S1x512x64 .f32) (x1 : Vec Ideal S1x2048x64 .f32)
    (h0 : S1x512x64.ShapeCasts S512x64) (h1 : S1x2048x64.ShapeCasts S2048x64) (hb : FTy.bits .bf16 < FTy.bits .f32)
    (ht : S2048x64.Transposes [1, 0] S64x2048) (r : Fin 512) (j : Fin 2048) :
    matmul D none
        (truncf .bf16 (mulf (shapeCast S512x64 x0 h0 : FVec Ideal S512x64 .f32) (broadcast S512x64 (FloatOps.ofBits .f32 0x3E000000#32))) hb)
        (transpose S64x2048 [1, 0] (truncf .bf16 (shapeCast S2048x64 x1 h1 : FVec Ideal S2048x64 .f32) hb) ht)
        (constant S512x2048 .f32 0x00000000#32) (ix2 r j)
      = tileScore x0 x1 r j := by
  refine (PlainMatmul.matmul_plain_apply D hlc hrc hln hrn hlb hrb none _ _ r j).trans ?_
  refine Finset.sum_congr rfl fun d' _ => ?_
  refine congrArg₂ (· * ·) ?_ ?_
  · show (shapeCast S512x64 x0 h0 (ix2 r d')) * cScale = _
    rw [shapeCast_1ab_ab_apply]
  · refine (transpose_ix2_apply _ ht d' j).trans ?_
    exact shapeCast_1ab_ab_apply x1 h1 j d'

/-- The causal select at `(r, j)`: the value on and below the (global) diagonal, `0` above it. -/
theorem masked_apply (t : Nat) (ht : t < 4) (s2 : FVec Ideal S512x2048 .f32)
    (hi0 : S512x2048.Iotas .tc 32 [0]) (hi1 : S512x2048.Iotas .tc 32 [1]) (r : Fin 512) (j : Fin 2048) :
    select (cmpi .sle (subi (iota .tc S512x2048 32 [1] hi1) (iota .tc S512x2048 32 [0] hi0))
        (broadcast S512x2048 (Scalar.muli (BitVec.ofNat 32 t) 512#32))) s2
        (broadcast S512x2048 (FloatOps.ofBits .f32 0x00000000#32)) (ix2 r j)
      = if j.val ≤ t * 512 + r.val then s2 (ix2 r j) else 0 := by
  show Scalar.select (IntOp.cmpi .sle (IntOp.subi (iota .tc S512x2048 32 [1] hi1 (ix2 r j)) (iota .tc S512x2048 32 [0] hi0 (ix2 r j)))
      (Scalar.muli (BitVec.ofNat 32 t) 512#32)) (s2 (ix2 r j)) (Ideal.ofBits .f32 0x00000000#32) = _
  rw [iota_single_apply, iota_single_apply]
  show Scalar.select (IntOp.cmpi .sle (IntOp.subi (BitVec.ofNat 32 j.val) (BitVec.ofNat 32 r.val))
      (Scalar.muli (BitVec.ofNat 32 t) 512#32)) (s2 (ix2 r j)) (Ideal.ofBits .f32 0x00000000#32) = _
  rw [mask_tile j.val r.val t j.isLt r.isLt ht]
  by_cases hp : j.val ≤ t * 512 + r.val
  · rw [if_pos hp, if_pos hp]; rfl
  · rw [if_neg hp, if_neg hp]; exact Ideal.ofBits_zero_f32

/-- The masked squared score at `(r, j)` is the tile's weight. -/
theorem weight_apply (D : DotDims S512x64 S64x2048 S512x2048)
    (hlc : D.lhsContracting = [1]) (hrc : D.rhsContracting = [0]) (hln : D.lhsNonContracting = [0])
    (hrn : D.rhsNonContracting = [1]) (hlb : D.lhsBatch = []) (hrb : D.rhsBatch = [])
    (t : Nat) (ht4 : t < 4) (x0 : Vec Ideal S1x512x64 .f32) (x1 : Vec Ideal S1x2048x64 .f32)
    (h0 : S1x512x64.ShapeCasts S512x64) (h1 : S1x2048x64.ShapeCasts S2048x64) (hb : FTy.bits .bf16 < FTy.bits .f32)
    (ht : S2048x64.Transposes [1, 0] S64x2048)
    (hi0 : S512x2048.Iotas .tc 32 [0]) (hi1 : S512x2048.Iotas .tc 32 [1]) (r : Fin 512) (j : Fin 2048) :
    select (cmpi .sle (subi (iota .tc S512x2048 32 [1] hi1) (iota .tc S512x2048 32 [0] hi0))
        (broadcast S512x2048 (Scalar.muli (BitVec.ofNat 32 t) 512#32)))
        (mulf
          (matmul D none
            (truncf .bf16 (mulf (shapeCast S512x64 x0 h0 : FVec Ideal S512x64 .f32) (broadcast S512x64 (FloatOps.ofBits .f32 0x3E000000#32))) hb)
            (transpose S64x2048 [1, 0] (truncf .bf16 (shapeCast S2048x64 x1 h1 : FVec Ideal S2048x64 .f32) hb) ht)
            (constant S512x2048 .f32 0x00000000#32))
          (matmul D none
            (truncf .bf16 (mulf (shapeCast S512x64 x0 h0 : FVec Ideal S512x64 .f32) (broadcast S512x64 (FloatOps.ofBits .f32 0x3E000000#32))) hb)
            (transpose S64x2048 [1, 0] (truncf .bf16 (shapeCast S2048x64 x1 h1 : FVec Ideal S2048x64 .f32) hb) ht)
            (constant S512x2048 .f32 0x00000000#32)))
        (broadcast S512x2048 (FloatOps.ofBits .f32 0x00000000#32)) (ix2 r j)
      = tileWeight t x0 x1 r j := by
  refine (masked_apply t ht4 _ hi0 hi1 r j).trans ?_
  unfold tileWeight
  refine if_congr Iff.rfl ?_ rfl
  refine (mulf_apply _ _ _).trans ?_
  rw [score_apply D hlc hrc hln hrn hlb hrb x0 x1 h0 h1 hb ht r j]

/-- A row sum kept as a column, at `(r, 0)`: the sum over the row. -/
theorem rowsum_apply (w : FVec Ideal S512x2048 .f32) (hr : S512x2048.Reduces [1] S512) (hφ : FKind.Formats .f32)
    (hacc : (0x00000000#32 : BitVec 32) = FKind.add.neutral .f32 hφ) (hc : S512.ShapeCasts S512x1) (r : Fin 512) (u : Fin 1) :
    shapeCast S512x1 (multiReduction .add [1] S512 w 0x00000000#32 hr hφ hacc) hc (ix2 r u) = ∑ j : Fin 2048, w (ix2 r j) := by
  refine (ColumnForms.shapeCast_a_a1_apply _ hc r u).trans ?_
  refine (Ideal.multiReduction_add_single w 0x00000000#32 hr hφ hacc (ix1 r)).trans ?_
  exact Finset.sum_congr rfl fun k _ => congrArg w (funext fun a => Fin.ext (by
    match a with | ⟨0, _⟩ => rfl | ⟨1, _⟩ => rfl))

/-- What the body stores at `(u, r, d)` of its output block, from its three input blocks, at query tile `i 1`. -/
theorem pay_apply (i : grid0.Coords) (x0 : Vec Ideal S1x512x64 .f32) (x1 x2 : Vec Ideal S1x2048x64 .f32)
    (u : Fin 1) (r : Fin 512) (d : Fin 64) :
    k0_pay1 (F := Ideal) i x0 x1 x2 (ix3 u r d)
      = Ideal.div (∑ j : Fin 2048, tileWeight (i 1).val x0 x1 r j * x2 (ix3 (0 : Fin 1) j d))
          ((∑ j : Fin 2048, tileWeight (i 1).val x0 x1 r j) + cEps) := by
  unfold k0_pay1
  refine (shapeCast_ab_1ab_apply _ _ u r d).trans ?_
  refine (divf_apply _ _ _).trans ?_
  refine congrArg₂ Ideal.div ?_ ?_
  · refine (PlainMatmul.matmul_plain_apply _ rfl rfl rfl rfl rfl rfl none _ _ r d).trans ?_
    refine Finset.sum_congr rfl fun j _ => ?_
    refine congrArg₂ (· * ·) ?_ (shapeCast_1ab_ab_apply x2 _ j d)
    exact weight_apply _ rfl rfl rfl rfl rfl rfl (i 1).val (i 1).isLt x0 x1 _ _ _ _ _ _ r j
  · refine (ColumnForms.broadcastTo_a1_ab_apply _ _ r d).trans ?_
    refine (addf_apply _ _ _).trans ?_
    refine congrArg₂ (· + ·) ?_ rfl
    refine (rowsum_apply _ _ _ _ _ r 0).trans ?_
    exact Finset.sum_congr rfl fun j _ =>
      weight_apply _ rfl rfl rfl rfl rfl rfl (i 1).val (i 1).isLt x0 x1 _ _ _ _ _ _ r j

/-- The same at any index `y` of the output block. -/
theorem pay_at (i : grid0.Coords) (x0 : Vec Ideal S1x512x64 .f32) (x1 x2 : Vec Ideal S1x2048x64 .f32) (y : S1x512x64.Idx) :
    k0_pay1 (F := Ideal) i x0 x1 x2 y
      = Ideal.div (∑ j : Fin 2048, tileWeight (i 1).val x0 x1 (y 1) j * x2 (ix3 (0 : Fin 1) j (y 2)))
          ((∑ j : Fin 2048, tileWeight (i 1).val x0 x1 (y 1) j) + cEps) := by
  exact (congrArg (k0_pay1 (F := Ideal) i x0 x1 x2) (eq_ix3 y)).trans (pay_apply i x0 x1 x2 (y 0) (y 1) (y 2))

/-- The tile's formula is the specification at the global row: when local row `r` of tile `t` is row `i = t·512 + r` of
    head `bh`, the query block's row `r` is `Q bh i`, and the key and value blocks are `K bh` and `W bh`, the
    weights are the specification's (the comparison `j ≤ t·512 + r` is `j ≤ i`; the scale folded into the query row
    leaves the score what it is) and so is the quotient. -/
theorem tile_is_attn (Q K W : Arr) (bh : Fin 16) (i : Fin 2048) (t : Nat) (r : Fin 512) (hi : i.val = t * 512 + r.val)
    (d : Fin 64) (x0 : Vec Ideal S1x512x64 .f32) (x1 x2 : Vec Ideal S1x2048x64 .f32)
    (h0 : ∀ d' : Fin 64, x0 (ix3 (0 : Fin 1) r d') = Q bh i d')
    (h1 : ∀ (j : Fin 2048) (d' : Fin 64), x1 (ix3 (0 : Fin 1) j d') = K bh j d')
    (h2 : ∀ j : Fin 2048, x2 (ix3 (0 : Fin 1) j d) = W bh j d) :
    Ideal.div (∑ j : Fin 2048, tileWeight t x0 x1 r j * x2 (ix3 (0 : Fin 1) j d))
        ((∑ j : Fin 2048, tileWeight t x0 x1 r j) + cEps)
      = attnAt Q K W bh i d := by
  have hw : ∀ j : Fin 2048, tileWeight t x0 x1 r j = weight Q K bh i j := fun j => by
    unfold tileWeight weight
    have hs : tileScore x0 x1 r j = score Q K bh i j := by
      unfold tileScore
      rw [← score_scaled_query]
      exact Finset.sum_congr rfl fun d' _ => by rw [h0 d', h1 j d']
    rw [hs, hi]
  unfold attnAt
  refine congrArg₂ Ideal.div ?_ ?_
  · exact Finset.sum_congr rfl fun j _ => by rw [hw j, h2 j]
  · exact congrArg (· + cEps) (Finset.sum_congr rfl fun j _ => hw j)

end Cert.KernelIdeal.Tile

end
-- ==== Proof.KernelArray.lean ====
import proofs.«166495_j29240137351227_2_alg».proof.Proof.FrameKernelIdeal
import proofs.«166495_j29240137351227_2_alg».proof.Proof.KernelTile
import Idealize.ShloMosaic.Lib.Pipeline.Value
import Idealize.ShloMosaic.Lib.StableHlo.Run
import Idealize.ShloMosaic.Lib.ValueLayout

/-!
# From the tiles to the whole result

The grid has 16 × 4 points; point `(bh, t)` writes back rows `t·512 … t·512 + 511` of head `bh` of the `[16, 2048, 64]`
result, computed from the query block at the same place and the whole key and value blocks of head `bh`. Every tile is
the restriction of ONE function of the three `[16, 2048, 64]` arrays the region finds — the specification `attn3` —, the
tiles cover the result, and the arrays the region finds and the array the program returns are the arguments and the
result with the unit batch axis dropped and put back. So the program returns `attn4` of its three arguments.
-/

noncomputable section

open scoped BigOperators

namespace Cert.KernelIdeal.Whole

open Cert.KernelIdeal Cert.KernelIdeal.Gen Cert.KernelIdeal.GenP Cert.CausalAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds: the arguments without their batch axis -/

theorem V_v0 (c : Dev nD) : (V m c main_v0 : S16x2048x64.Idx → EReal)
    = shapeCast S16x2048x64 (m ((c : Thread nD τ).loc main_arg0)) shapeCasts_S1x16x2048x64_S16x2048x64 := by
  show StableHlo.after hostOps0 (fun b => m (c, b)) (Proc.devRef .tc main_v0) = _
  after_results
  rfl

theorem V_v1 (c : Dev nD) : (V m c main_v1 : S16x2048x64.Idx → EReal)
    = shapeCast S16x2048x64 (m ((c : Thread nD τ).loc main_arg1)) shapeCasts_S1x16x2048x64_S16x2048x64 := by
  show StableHlo.after hostOps0 (fun b => m (c, b)) (Proc.devRef .tc main_v1) = _
  after_results
  rfl

theorem V_v2 (c : Dev nD) : (V m c main_v2 : S16x2048x64.Idx → EReal)
    = shapeCast S16x2048x64 (m ((c : Thread nD τ).loc main_arg2)) shapeCasts_S1x16x2048x64_S16x2048x64 := by
  show StableHlo.after hostOps0 (fun b => m (c, b)) (Proc.devRef .tc main_v2) = _
  after_results
  rfl

/-- An argument without its batch axis, by coordinates, is the argument by coordinates. -/
theorem acc3_dropBatch (x : S1x16x2048x64.Idx → EReal) (hc : S1x16x2048x64.ShapeCasts S16x2048x64) :
    acc3 (shapeCast S16x2048x64 x hc) = acc4 x :=
  funext fun h => funext fun i => funext fun d => shapeCast_1abc_abc_apply x hc h i d

/-! ## The index maps over the grid -/

theorem hz : (![0, 0, 0] : Fin 3 → Nat) = fun _ => 0 := funext fun a => by fin_cases a <;> rfl

/-- The printed index maps, decided over the 64 grid points: the query window moves with the output window, the key
    and value windows follow its head and stay at block 0 along the rows; the output's row-block index is the grid's
    second coordinate. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (2 : Fin 3) = 0 ∧ win0_3.index t (1 : Fin 3) = (grid0.coords t 1).val
    ∧ win0_3.index t (0 : Fin 3) < 16 ∧ win0_3.index t (1 : Fin 3) < 4 :=
  (by decide +kernel : ∀ t : Fin grid0.N, _)

/-- Every (head, row block) is some point's. -/
theorem idx_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

/-! ## What a point writes back -/

/-- WHAT POINT `t` WRITES BACK is block `t` of the specification of the three arrays the region finds. -/
theorem flushed_eq (c : Dev nD) (t : Fin cfg0.N) :
    (dats m 0 c).flushed 3 t
      = ((cfg0.win 3).blk t).view.read (Elt Ideal) (attn3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  obtain ⟨e00, e01, e02, e10, e11, e12, e20, e21, e22, e32, e31, b0, b1⟩ := idx_facts t
  funext y
  show k0_pay1 (F := Ideal) (grid0.coords t) (iblk m c 0 t) (iblk m c 1 t) (iblk m c 2 t) y
    = attn3 (V m c main_v0) (V m c main_v1) (V m c main_v2) (((cfg0.win 3).blk t).view.emb y)
  refine (Tile.pay_at (grid0.coords t) (iblk m c 0 t) (iblk m c 1 t) (iblk m c 2 t) y).trans ?_
  have hy0 : (y 0).val < 1 := (y 0).isLt
  have hy1 : (y 1).val < 512 := (y 1).isLt
  have hy2 : (y 2).val < 64 := (y 2).isLt
  have hE0 : ((((cfg0.win 3).blk t).view.emb y) 0).val = win0_3.index t (0 : Fin 3) * 1 + 1 * (y 0).val := rfl
  have hE1 : ((((cfg0.win 3).blk t).view.emb y) 1).val = win0_3.index t (1 : Fin 3) * 512 + 1 * (y 1).val := rfl
  have hE2 : ((((cfg0.win 3).blk t).view.emb y) 2).val = win0_3.index t (2 : Fin 3) * 64 + 1 * (y 2).val := rfl
  refine (Tile.tile_is_attn (acc3 (V m c main_v0)) (acc3 (V m c main_v1)) (acc3 (V m c main_v2))
    ((((cfg0.win 3).blk t).view.emb y) 0) ((((cfg0.win 3).blk t).view.emb y) 1) (grid0.coords t 1).val (y 1)
    (by rw [hE1, e31]; omega) (y 2) (iblk m c 0 t) (iblk m c 1 t) (iblk m c 2 t) ?_ ?_ ?_).trans ?_
  · intro d'
    show V m c main_v0 (((cfg0.win 0).blk t).view.emb (ix3 (0 : Fin 1) (y 1) d')) = V m c main_v0 (ix3 _ _ d')
    refine congrArg (V m c main_v0) (funext fun a => Fin.ext ?_)
    match a with
    | ⟨0, _⟩ => show win0_0.index t (0 : Fin 3) * 1 + 1 * 0 = ((((cfg0.win 3).blk t).view.emb y) 0).val; rw [hE0]; omega
    | ⟨1, _⟩ => show win0_0.index t (1 : Fin 3) * 512 + 1 * (y 1).val = ((((cfg0.win 3).blk t).view.emb y) 1).val; rw [hE1]; omega
    | ⟨2, _⟩ => show win0_0.index t (2 : Fin 3) * 64 + 1 * d'.val = d'.val; omega
  · intro j d'
    show V m c main_v1 (((cfg0.win 1).blk t).view.emb (ix3 (0 : Fin 1) j d')) = V m c main_v1 (ix3 _ j d')
    refine congrArg (V m c main_v1) (funext fun a => Fin.ext ?_)
    match a with
    | ⟨0, _⟩ => show win0_1.index t (0 : Fin 3) * 1 + 1 * 0 = ((((cfg0.win 3).blk t).view.emb y) 0).val; rw [hE0]; omega
    | ⟨1, _⟩ => show win0_1.index t (1 : Fin 3) * 2048 + 1 * j.val = j.val; omega
    | ⟨2, _⟩ => show win0_1.index t (2 : Fin 3) * 64 + 1 * d'.val = d'.val; omega
  · intro j
    show V m c main_v2 (((cfg0.win 2).blk t).view.emb (ix3 (0 : Fin 1) j (y 2))) = V m c main_v2 (ix3 _ j (y 2))
    refine congrArg (V m c main_v2) (funext fun a => Fin.ext ?_)
    match a with
    | ⟨0, _⟩ => show win0_2.index t (0 : Fin 3) * 1 + 1 * 0 = ((((cfg0.win 3).blk t).view.emb y) 0).val; rw [hE0]; omega
    | ⟨1, _⟩ => show win0_2.index t (1 : Fin 3) * 2048 + 1 * j.val = j.val; omega
    | ⟨2, _⟩ => show win0_2.index t (2 : Fin 3) * 64 + 1 * (y 2).val = (y 2).val; omega
  · show attnAt _ _ _ _ _ (y 2) = attnAt _ _ _ _ _ ((((cfg0.win 3).blk t).view.emb y) 2)
    refine congrArg _ (Fin.ext ?_)
    rw [hE2]; omega

/-! ## The tiles cover the result -/

/-- An index of the array is in point `t`'s block iff each coordinate is in the block's range on its axis. -/
theorem mem_blk (t : Fin cfg0.N) (i : S16x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3).slice (win0_3.rect t)).set ↔ _
  rw [View.set_slice_whole, Rect.mem_set_unit]
  exact Iff.rfl

theorem cover (i : S16x2048x64.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE ARRAY after the region: the specification of the three arrays the region finds. -/
theorem final (c : Dev nD) :
    (dats m 0 c).arrAt 3 cfg0.N = attn3 (V m c main_v0) (V m c main_v1) (V m c main_v2) :=
  (dats m 0 c).arrAt_eq_of_cover 3 _ (fun t _ => flushed_eq m c t) cover

/-! ## The line after the region: the batch axis put back -/

theorem tail_v4 (c : Dev nD) :
    (Pipeline.afterTail₀ cfgs (dats m) 0 (V0 m) [hostOps1] c main_v4 : S1x16x2048x64.Idx → EReal)
      = shapeCast S1x16x2048x64 ((dats m 0 c).arrAt 3 cfg0.N : S16x2048x64.Idx → EReal) shapeCasts_S16x2048x64_S1x16x2048x64 := by
  unfold Pipeline.afterTail₀
  show StableHlo.after hostOps1 _ (Proc.devRef .tc main_v4) = _
  after_results
  rw [Pipeline.withArrays_arr spec0 launch0.win.arr_inj c _ _ 3]
  rfl

/-- What the program returns: the specification of its three arguments. -/
theorem result_eq (c : Dev nD) :
    (Pipeline.afterTail₀ cfgs (dats m) 0 (V0 m) [hostOps1] c main_v4 : S1x16x2048x64.Idx → EReal)
      = attn4 (m ((c : Thread nD τ).loc main_arg0)) (m ((c : Thread nD τ).loc main_arg1)) (m ((c : Thread nD τ).loc main_arg2)) := by
  rw [tail_v4, final, V_v0, V_v1, V_v2]
  funext x
  obtain ⟨u, h, i, d, rfl⟩ : ∃ (u : Fin 1) (h : Fin 16) (i : Fin 2048) (d : Fin 64), x = ix4 u h i d :=
    ⟨x 0, x 1, x 2, x 3, eq_ix4 x⟩
  rw [shapeCast_abc_1abc_apply, attn3_ix3, attn4_ix4, acc3_dropBatch, acc3_dropBatch, acc3_dropBatch]

/-! ## The run -/

/-- Every weakly fair execution terminates with the result at the specification of the arguments and the arguments
    unchanged. -/
theorem run : θ_run defs (onTc (τ := τ) (main (F := Ideal))) ⟨m, fun _ => 0, ρ⟩ fun r => ∀ c : Dev nD,
      r.2.mem ((c.tc : Thread nD τ).loc main_v4)
        = attn4 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRead.lean ====
import proofs.«166495_j29240137351227_2_alg».proof.Proof.Gen.ReferenceIdeal.Read
import proofs.«166495_j29240137351227_2_alg».proof.Proof.Spec

/-!
# The reference computes the specification

The reference's operations, read one at a time at an index: the causal mask is `i ≥ j` on 32-bit words, the masked
squared score is the weight of the specification, the row sum and the product with `V` are its two sums, and the
quotient is its quotient.
-/

noncomputable section

open scoped BigOperators

namespace Cert.ReferenceIdeal.RefValue

open Cert.ReferenceIdeal Cert.ReferenceIdeal.Read Cert.CausalAttn Idealize.ShloMosaic Idealize.ShloMosaic.ValueIdx

/-- The contents of a `[1, 16, 2048, 64]` float buffer over the extended reals. -/
abbrev A4 := (⟨S1x16x2048x64, .f32⟩ : BufTy).Contents (Elt Ideal)

/-! ## The composed index maps, by coordinates -/

theorem lidx0 (h : Fin 16) (r j : Fin 2048) (k : Fin 64) :
    lidx_main_v0 (ix4 (0 : Fin 1) h r j) k = ix4 (0 : Fin 1) h r k :=
  funext fun a => by match a with | ⟨0, _⟩ => rfl | ⟨1, _⟩ => rfl | ⟨2, _⟩ => rfl | ⟨3, _⟩ => rfl

theorem ridx0 (h : Fin 16) (r j : Fin 2048) (k : Fin 64) :
    ridx_main_v0 (ix4 (0 : Fin 1) h r j) k = ix4 (0 : Fin 1) h j k :=
  funext fun a => by match a with | ⟨0, _⟩ => rfl | ⟨1, _⟩ => rfl | ⟨2, _⟩ => rfl | ⟨3, _⟩ => rfl

theorem lidx8 (h : Fin 16) (r : Fin 2048) (d : Fin 64) (k : Fin 2048) :
    lidx_main_v8 (ix4 (0 : Fin 1) h r d) k = ix4 (0 : Fin 1) h r k :=
  funext fun a => by match a with | ⟨0, _⟩ => rfl | ⟨1, _⟩ => rfl | ⟨2, _⟩ => rfl | ⟨3, _⟩ => rfl

theorem ridx8 (h : Fin 16) (r : Fin 2048) (d : Fin 64) (k : Fin 2048) :
    ridx_main_v8 (ix4 (0 : Fin 1) h r d) k = ix4 (0 : Fin 1) h k d :=
  funext fun a => by match a with | ⟨0, _⟩ => rfl | ⟨1, _⟩ => rfl | ⟨2, _⟩ => rfl | ⟨3, _⟩ => rfl

theorem idx7 (h : Fin 16) (r : Fin 2048) (d : Fin 64) (k : Fin 2048) :
    idx_main_v7 (idx_main_v9 (idx_main_v12 (ix4 (0 : Fin 1) h r d))) k = ix4 (0 : Fin 1) h r k :=
  funext fun a => by match a with | ⟨0, _⟩ => rfl | ⟨1, _⟩ => rfl | ⟨2, _⟩ => rfl | ⟨3, _⟩ => rfl

/-! ## The mask, the weight, the result -/

/-- The reference's mask at `(h, r, j)`: set exactly on and below the diagonal. -/
theorem mask_apply (h : Fin 16) (r j : Fin 2048) :
    val_main_call1_v0 (F := Ideal) (ix4 (0 : Fin 1) h r j) = if j.val ≤ r.val then 1#1 else 0#1 := by
  rw [val_main_call1_v0_apply, val_main_v5_apply, val_main_call0_v4_apply, val_main_call0_v2_apply,
    val_main_call0_v0_apply, val_main_call0_v1_apply, val_main_call0_c_apply, val_main_call0_v3_apply,
    val_main_v4_apply, val_main_c_apply, val_main_call0_v5_apply, val_main_call0_c_0_apply]
  show Scalar.select (IntOp.cmpi .sge (IntOp.addi (BitVec.ofNat 32 r.val) 0#32) (BitVec.ofNat 32 j.val)) 1#1 0#1 = _
  rw [mask_global r.val j.val r.isLt j.isLt]
  by_cases hp : j.val ≤ r.val
  · rw [if_pos hp]; rfl
  · rw [if_neg hp]; rfl

/-- The masked squared score is the weight. -/
theorem weight_apply (x0 x1 : A4) (h : Fin 16) (r j : Fin 2048) :
    val_main_v6 (F := Ideal) x0 x1 (ix4 (0 : Fin 1) h r j) = weight (acc4 x0) (acc4 x1) h r j := by
  rw [val_main_v6_apply, mask_apply, val_main_v3_apply, val_main_v2_apply, val_main_v0_apply, val_main_v1_apply,
    val_main_cst_apply, val_main_call1_v1_apply, val_main_cst_0_apply]
  simp only [lidx0, ridx0]
  unfold weight score acc4 cScale
  by_cases hp : j.val ≤ r.val
  · rw [if_pos hp, if_pos hp]; rfl
  · rw [if_neg hp, if_neg hp]; exact Ideal.ofBits_zero_f32

/-- The reference's result is the specification of its three arguments. -/
theorem result_eq (x0 x1 x2 : A4) : val_main_v13 (F := Ideal) x0 x1 x2 = attn4 x0 x1 x2 := by
  funext i
  obtain ⟨u, h, r, d, rfl⟩ : ∃ (u : Fin 1) (h : Fin 16) (r : Fin 2048) (d : Fin 64), i = ix4 u h r d :=
    ⟨i 0, i 1, i 2, i 3, eq_ix4 i⟩
  obtain rfl : u = 0 := Subsingleton.elim _ _
  rw [val_main_v13_apply, val_main_v8_apply, val_main_v12_apply, val_main_v11_apply, val_main_v9_apply,
    val_main_v7_apply, val_main_cst_1_apply, val_main_v10_apply, val_main_cst_2_apply, attn4_ix4]
  simp only [lidx8, ridx8, idx7, weight_apply]
  unfold attnAt cEps
  show Ideal.div _ ((Ideal.ofBits .f32 0x00000000#32 + _) + _) = _
  rw [Ideal.ofBits_zero_f32, zero_add]
  rfl

end Cert.ReferenceIdeal.RefValue

end
-- ==== Proof.lean ====
/- The proof of `Cert.Claim`: a tiled kernel for causal attention with squared scores, normalised by the row sum, against its
   whole-array reference, over the extended reals.

   Both programs compute, for head `h`, query row `i` and feature `d`,

     out h i d = (∑_{j ≤ i} s(i,j)² · V h j d) / ((∑_{j ≤ i} s(i,j)²) + ε),   s(i,j) = (∑_{d'} Q h i d' · K h j d') · (1/8).

   The reference takes the whole `[2048, 2048]` score plane of each head, scales it, squares it, masks it with the lower
   triangle (`i ≥ j`), sums its rows, multiplies it with `V` and divides. The kernel works on 16 × 4 tiles: at the tile of
   head `bh` and row block `t` it scales the 512 query rows first, contracts them with all 2048 keys of the head, squares,
   masks with the tile-relative comparison `j − r ≤ t·512`, and takes the row sum and the product with `V` of the
   masked plane. The two agree because (a) a non-negative real factor moves across a finite sum of extended reals
   (`(∑ q·k)·c = ∑ (q·c)·k`: Proof/Spec.lean), (b) `j − r ≤ t·512` is `j ≤ t·512 + r` on 32-bit words for the
   indices that occur, and (c) the tiles are restrictions of one whole-array function and cover the result
   (Proof/KernelArray.lean). A change of float format is the identity on the extended reals, and the two matrix
   products and the row sum are plain sums there; no step needs the inputs to be finite, so the precondition is not
   opened. The idealization rewrote nothing, so `preserves` is `True`. -/
import proofs.«166495_j29240137351227_2_alg».proof.Defs
import proofs.«166495_j29240137351227_2_alg».proof.Proof.Gen.Kernel
import proofs.«166495_j29240137351227_2_alg».proof.Proof.Gen.KernelIdeal
import proofs.«166495_j29240137351227_2_alg».proof.Proof.Gen.ReferenceIdeal
import proofs.«166495_j29240137351227_2_alg».proof.Proof.Gen.Pre_finite_inputs
import proofs.«166495_j29240137351227_2_alg».proof.Proof.Gen.ReferenceIdeal.Run
import proofs.«166495_j29240137351227_2_alg».proof.Proof.FrameKernel
import proofs.«166495_j29240137351227_2_alg».proof.Proof.FrameKernelIdeal
import proofs.«166495_j29240137351227_2_alg».proof.Proof.KernelArray
import proofs.«166495_j29240137351227_2_alg».proof.Proof.RefRead
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.GenP.frame m ρ

/-- So does the kernel read over the extended reals. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories that agree on the three arguments, the kernel's result array and the reference's both end at the
    specification `attn4` of the arguments. -/
theorem algebraic : Cert.algebraic_KernelIdeal_ReferenceIdeal := by
  intro m ρ m' ρ' _ hagree
  refine ⟨fun c => Cert.CausalAttn.attn4 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
